-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x20 : Shape := ⟨2, ![32, 20]⟩
abbrev S20 : Shape := ⟨1, ![20]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x20 : S_.BroadcastsInDim S32x20 (![] : Fin 0 → Fin S32x20.rank)
  reducesTo_S32x20_S_d0_1 : S32x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg5 : FVec F S20 .f32) (main_v13 : IVec S_ 1) (main_v16 : IVec S32x20 1) : IVec S_ 1 :=
  let main_c_5 : IVec S_ 1 := constantI S_ 1 1#1
  let main_v17 : IVec S_ 1 := (fun x v => Host.reduce IntOp.andi x v reducesTo_S32x20_S_d0_1 h_S_) main_v16 main_c_5
  let main_v18 : IVec S_ 1 := andi main_v13 main_v17
  let main_v19 : FVec F S20 .f32 := Host.absf main_arg5
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  main_v23

def fn {F : FTy → Type} [FloatOps F] (main_arg0 : FVec F S100000x64 .f32) (main_arg1 : IVec S2x3200000 32) (main_arg2 : FVec F S64x32 .f32) (main_arg3 : FVec F S32 .f32) (main_arg4 : FVec F S32x20 .f32) (main_arg5 : FVec F S20 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x20 .f32 := Host.absf main_arg4
  let main_cst_4 : FVec F S_ .f32 := constant S_ .f32 0x7F800000#32
  let main_v15 : FVec F S32x20 .f32 := broadcastInDim S32x20 ![] bcast_S_S32x20 main_cst_4
  let main_v16 : IVec S32x20 1 := cmpf .olt main_v14 main_v15
  fn_part1 (F := F) main_arg5 main_v13 main_v16
-- ==== Kernel.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x20 : Shape := ⟨2, ![32, 20]⟩
abbrev S20 : Shape := ⟨1, ![20]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x64 : Shape := ⟨2, ![10000, 64]⟩
abbrev S10000x32 : Shape := ⟨2, ![10000, 32]⟩
abbrev S3300000x32 : Shape := ⟨2, ![3300000, 32]⟩
abbrev S1x32 : Shape := ⟨2, ![1, 32]⟩
abbrev S1x20 : Shape := ⟨2, ![1, 20]⟩
abbrev S100000x20 : Shape := ⟨2, ![100000, 20]⟩
abbrev S10000x20 : Shape := ⟨2, ![10000, 20]⟩

abbrev nBuf : Space → Nat
  | .hbm => 68
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x32, .f32⟩
  | .hbm, ⟨3, _⟩ => ⟨S32, .f32⟩
  | .hbm, ⟨4, _⟩ => ⟨S32x20, .f32⟩
  | .hbm, ⟨5, _⟩ => ⟨S20, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x32, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S1x20, .f32⟩
  | .hbm, ⟨67, _⟩ => ⟨S100000x20, .f32⟩
  | .local _ .vmem, ⟨0, _⟩ => ⟨S10000x64, .f32⟩
  | .local _ .vmem, ⟨1, _⟩ => ⟨S10000x64, .f32⟩
  | .local _ .vmem, ⟨2, _⟩ => ⟨S64x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x20, .f32⟩
  | .local _ .vmem, ⟨9, _⟩ => ⟨S1x20, .f32⟩
  | .local _ .vmem, ⟨10, _⟩ => ⟨S10000x20, .f32⟩
  | .local _ .vmem, ⟨11, _⟩ => ⟨S10000x20, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x20 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S20_S1x20 : S20.ShapeCasts S1x20
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x20_S32x20_0_0 : ∀ a, (![0, 0] : Fin 2 → Nat) a + S32x20.size a ≤ S32x20.size a
  h_S32x20 : 0 < S32x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S10000x20 : S1x20.Broadcasts S10000x20
  inb_S10000x20_S10000x20_0_0 : ∀ a, (![0, 0] : Fin 2 → Nat) a + S10000x20.size a ≤ S10000x20.size a
  h_S10000x20 : 0 < S10000x20.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x20_S10000x20_1_0_0_1_n_n_wf : DotDims.WF S10000x32 S32x20 S10000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x20.size a ≤ S32x20.size a
  hwx1_2 : ∀ i : grid1.Coords, EltTy.bits .f32 = 32 ∨ (Rect.block (s := S32x20) S32x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x20.size a ≤ S1x20.size a
  hwx1_3 : ∀ i : grid1.Coords, EltTy.bits .f32 = 32 ∨ (Rect.block (s := S1x20) S1x20.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x20.size a ≤ S100000x20.size a
  hwx1_4 : ∀ i : grid1.Coords, EltTy.bits .f32 = 32 ∨ (Rect.block (s := S100000x20) S10000x20.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x20_S10000x20_1_0_0_1_n_n : DotDims S10000x32 S32x20 S10000x20 where
  lhsContracting := [1]
  rhsContracting := [0]
  lhsNonContracting := [0]
  rhsNonContracting := [1]
  lhsBatch := []
  rhsBatch := []
  wf := dot_S10000x32_S32x20_S10000x20_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S10000x20.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x20 : Shape := ⟨2, ![32, 20]⟩
abbrev S20 : Shape := ⟨1, ![20]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x20 : Shape := ⟨2, ![100000, 20]⟩
abbrev S1x20 : Shape := ⟨2, ![1, 20]⟩

abbrev nBuf : Space → Nat
  | .hbm => 75
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x32, .f32⟩
  | .hbm, ⟨3, _⟩ => ⟨S32, .f32⟩
  | .hbm, ⟨4, _⟩ => ⟨S32x20, .f32⟩
  | .hbm, ⟨5, _⟩ => ⟨S20, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x32, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x20, .f32⟩
  | .hbm, ⟨72, _⟩ => ⟨S1x20, .f32⟩
  | .hbm, ⟨73, _⟩ => ⟨S100000x20, .f32⟩
  | .hbm, ⟨74, _⟩ => ⟨S100000x20, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x20_S100000x20_1_0_0_1_n_n_wf : DotDims.WF S100000x32 S32x20 S100000x20 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x20_S100000x20_1_0_0_1_n_n : DotDims S100000x32 S32x20 S100000x20 where
  lhsContracting := [1]
  rhsContracting := [0]
  lhsNonContracting := [0]
  rhsNonContracting := [1]
  lhsBatch := []
  rhsBatch := []
  wf := dot_S100000x32_S32x20_S100000x20_1_0_0_1_n_n_wf

class Facts : Prop extends Facts₀ where

variable [Facts]
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.KernelRun.lean ====
/-
  The idealized kernel's run with its result NAMED.

  The program is two grid regions among stretches of host operations.  Its run ends, on every core, with every buffer
  that outlives a region holding the last boundary's contents `W6`: the launch memory pushed through the host stretches,
  each region replacing its arrays by what its write-backs leave.  The frame claim keeps of that only the six argument
  arrays; the value claim also needs the RESULT array, which is the second region's output window.  So the same launch
  is stated once more with one more conjunct: the result buffer ends at `W6` there.
-/
import proofs.«121064_j6725918785702_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and the six argument arrays end as launched. -/
theorem run_named : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.FeatBlocks.lean ====
/-
  The first region: the projected features.

  The region runs over ten grid points.  Point `t` loads rows `10000·t … 10000·t + 9999` of `x` (a `[10000, 64]` block)
  and the whole of `w` (`[64, 32]`), multiplies them into a zero accumulator, and writes the `[10000, 32]` product back as
  rows `10000·t …` of the output.  At the ideal values a change of float format is the identity and a product into a zero
  accumulator is an exact sum, so entry `(p, q)` of the block is `∑ k, x (10000·t + p, k) · w (k, q)`: it depends on row
  `10000·t + p` of `x` only.  The ten blocks tile the `[100000, 32]` output, hence after the run the output holds, at every
  `(r, q)`, the sum `∑ k, x (r, k) · w (k, q)` — whatever the arrays held when the region was entered.
-/
import proofs.«121064_j6725918785702_1_alg».proof.Proof.Gen.KernelIdeal.Frame
import proofs.«121064_j6725918785702_1_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.Feat

open Idealize.ShloMosaic Idealize.ShloMosaic.TcCoe Idealize.SL.Sem Idealize.ShloMosaic.ValueIdx
open Idealize.ShloMosaic.Pipeline (Dat)
open Cert.KernelIdeal Cert.KernelIdeal.Gen

/-- The product of a `[100000, 64]` array with a `[64, 32]` array, entry by entry. -/
def proj (x : S100000x64.Idx → EReal) (w : S64x32.Idx → EReal) : S100000x32.Idx → EReal :=
  fun i => ∑ k : Fin 64, x (ix2 (i 0 : Fin 100000) k) * w (ix2 k (i 1 : Fin 32))

/-- What one grid point computes from its two loaded blocks, at `(p, q)`: a narrowing of the float format changes no
    value, and the product into the zero accumulator is the sum over the shared coordinate. -/
theorem block_apply (x0 : Vec Ideal S10000x64 .f32) (x1 : Vec Ideal S64x32 .f32) (p : Fin 10000) (q : Fin 32) :
    k0_pay1 (F := Ideal) x0 x1 (ix2 p q) = ∑ k : Fin 64, x0 (ix2 p k) * x1 (ix2 k q) := by
  unfold k0_pay1
  exact Cert.PlainProduct.matmul_nn_apply (m := 10000) (n := 32) (k := 64) dot_S10000x64_S64x32_S10000x32_1_0_0_1_n_n.wf none
    (truncf .bf16 x0 bitsLt_bf16_f32) (truncf .bf16 x1 bitsLt_bf16_f32) p q

theorem hz : (![0, 0] : Fin 2 → Nat) = fun _ => 0 := funext fun a => by fin_cases a <;> rfl

/-- The three windows' block positions over the grid: the `x` block and the output block move together down the
    rows, the `w` block stays, and nothing moves along the columns. -/
theorem positions : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem positions_onto : ∀ b : Fin 10, ∃ t : Fin cfg0.N, win0_2.index t (0 : Fin 2) = b.val ∧ win0_2.index t (1 : Fin 2) = 0 :=
  (by decide +kernel : ∀ b : Fin 10, ∃ t : Fin grid0.N, win0_2.index t (0 : Fin 2) = b.val ∧ win0_2.index t (1 : Fin 2) = 0)

section
variable (V : (c : Dev nD) → (b : Ref sig .tc) → Buf (Elt Ideal) ((c : Thread nD τ).loc b))

/-- What point `t` writes back is block `t` of the product of the two arrays as the region finds them. -/
theorem flushed_eq (c : Dev nD) (t : Fin cfg0.N) :
    (dat0 (F := Ideal) V c).flushed 2 t
      = ((cfg0.win 2).blk t).view.read (Elt Ideal) (proj (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x64) hz, View.ld_unit_zero (S := S64x32) hz]
  obtain ⟨e0, e1, e2, e3, e4, e5⟩ := positions t
  funext j
  obtain ⟨p, q, rfl⟩ : ∃ (p : Fin 10000) (q : Fin 32), j = ix2 p q := ⟨j 0, j 1, eq_ix2 j⟩
  show k0_pay1 (F := Ideal) (iblk0 V c 0 t) (iblk0 V c 1 t) (ix2 p q)
    = proj (V c main_arg0) (V c main_arg2) (((cfg0.win 2).blk t).view.emb (ix2 p q))
  refine (block_apply (iblk0 V c 0 t) (iblk0 V c 1 t) p q).trans ?_
  unfold proj
  refine Finset.sum_congr rfl fun k _ => ?_
  have hx : iblk0 V c 0 t (ix2 p k)
      = V c main_arg0 (ix2 ((((cfg0.win 2).blk t).view.emb (ix2 p q)) 0 : Fin 100000) k) := by
    show V c main_arg0 (((cfg0.win 0).blk t).view.emb (ix2 p k)) = _
    refine congrArg (V c main_arg0) ?_
    funext a; apply Fin.ext
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 64 + 1 * k.val = k.val
      omega
  have hw : iblk0 V c 1 t (ix2 k q)
      = V c main_arg2 (ix2 k ((((cfg0.win 2).blk t).view.emb (ix2 p q)) 1 : Fin 32)) := by
    show V c main_arg2 (((cfg0.win 1).blk t).view.emb (ix2 k q)) = _
    refine congrArg (V c main_arg2) ?_
    funext a; apply Fin.ext
    match a with
    | ⟨0, _⟩ =>
      show win0_1.index t (0 : Fin 2) * 64 + 1 * k.val = k.val
      omega
    | ⟨1, _⟩ =>
      show win0_1.index t (1 : Fin 2) * 32 + 1 * q.val = win0_2.index t (1 : Fin 2) * 32 + 1 * q.val
      omega
  rw [hx, hw]

/-- An index of the output lies in point `t`'s block iff each coordinate lies in the block's range on its axis. -/
theorem mem_blk (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v31).slice (win0_2.rect t)).set ↔ _
  rw [View.set_slice_whole, Rect.mem_set_unit]
  exact Iff.rfl

/-- The ten blocks cover the output: row `r` lies in block `r / 10000`. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht0, ht1⟩ := positions_onto ⟨(i 0).val / 10000, by omega⟩
  have ht0' : win0_2.index t (0 : Fin 2) = (i 0).val / 10000 := ht0
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 32 ≤ (i 1).val ∧ (i 1).val < win0_2.index t (1 : Fin 2) * 32 + 32
    omega

/-- The output array after the region: the product of the two input arrays as the region found them. -/
theorem final (c : Dev nD) :
    (dat0 (F := Ideal) V c).arrAt 2 cfg0.N = proj (V c main_arg0) (V c main_arg2) :=
  (dat0 (F := Ideal) V c).arrAt_eq_of_cover 2 (proj (V c main_arg0) (V c main_arg2))
    (fun t _ => flushed_eq V c t) covered

end

end Cert.KernelIdeal.Feat

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.ClassBlocks.lean ====
/-
  The second region: bias, rectifier, classifier.

  The region runs over ten grid points.  Point `t` loads rows `10000·t … 10000·t + 9999` of the aggregated features
  `a` (a `[10000, 32]` block), the bias row `b` (`[1, 32]`), the weights `w` (`[32, 20]`) and the output bias row `d`
  (`[1, 20]`), and writes back the `[10000, 20]` block `max (a + b, 0) · w + d`, the two rows broadcast down the block.
  At the ideal values the narrowing before the product is the identity and the product into a zero accumulator is an
  exact sum, so entry `(p, q)` of the block is `(∑ k, max (a (10000·t + p, k) + b (0, k), 0) · w (k, q)) + d (0, q)`:
  it depends on row `10000·t + p` of `a` only.  The ten blocks tile the `[100000, 20]` output, hence after the run the
  output holds that expression at every `(r, q)`, whatever the arrays held when the region was entered.
-/
import proofs.«121064_j6725918785702_1_alg».proof.Proof.Gen.KernelIdeal.Frame
import proofs.«121064_j6725918785702_1_alg».proof.Proof.LibPlainProduct
import proofs.«121064_j6725918785702_1_alg».proof.Proof.LibRowsProduct
import Idealize.ShloMosaic.Lib.Pipeline.Value
import Idealize.ShloMosaic.Lib.ValueIdx
import Idealize.ShloMosaic.PureOps.Ideal.Laws

set_option maxRecDepth 16384

noncomputable section

namespace Cert.KernelIdeal.Classify

open Idealize.ShloMosaic Idealize.ShloMosaic.TcCoe Idealize.SL.Sem Idealize.ShloMosaic.ValueIdx
open Idealize.ShloMosaic.Pipeline (Dat)
open Cert.KernelIdeal Cert.KernelIdeal.Gen

/-- The classifier's output from the aggregated features `a`, the bias row `b`, the weights `w` and the output bias row
    `d`, entry by entry. -/
def logits (a : S100000x32.Idx → EReal) (b : S1x32.Idx → EReal) (w : S32x20.Idx → EReal) (d : S1x20.Idx → EReal) :
    S100000x20.Idx → EReal :=
  fun i => (∑ k : Fin 32, max (a (ix2 (i 0 : Fin 100000) k) + b (ix2 (0 : Fin 1) k)) (Ideal.ofBits .f32 0x00000000#32)
      * w (ix2 k (i 1 : Fin 20))) + d (ix2 (0 : Fin 1) (i 1 : Fin 20))

/-- What one grid point computes from its four loaded blocks, at `(p, q)`. -/
theorem block_apply (x0 : Vec Ideal S10000x32 .f32) (x1 : Vec Ideal S1x32 .f32) (x2 : Vec Ideal S32x20 .f32)
    (x3 : Vec Ideal S1x20 .f32) (p : Fin 10000) (q : Fin 20) :
    k1_pay1 (F := Ideal) x0 x1 x2 x3 (ix2 p q)
      = (∑ k : Fin 32, max (x0 (ix2 p k) + x1 (ix2 (0 : Fin 1) k)) (Ideal.ofBits .f32 0x00000000#32) * x2 (ix2 k q))
        + x3 (ix2 (0 : Fin 1) q) := by
  unfold k1_pay1
  refine congrArg₂ (· + ·) ?_ ?_
  · refine (Cert.PlainProduct.matmul_nn_apply (m := 10000) (n := 20) (k := 32)
      dot_S10000x32_S32x20_S10000x20_1_0_0_1_n_n.wf none _ _ p q).trans ?_
    refine Finset.sum_congr rfl fun k _ => ?_
    refine congrArg₂ (· * ·) ?_ rfl
    refine congrArg₂ max (congrArg₂ (· + ·) ?_ ?_) rfl
    · exact congrFun (shapeCast_self x0 shapeCasts_S10000x32_S10000x32) (ix2 p k)
    · refine (Cert.RowsProduct.broadcastTo_1n_an_apply (a := 10000) (n := 32) _ broadcasts_S1x32_S10000x32 p k).trans ?_
      exact congrFun (shapeCast_self x1 shapeCasts_S1x32_S1x32) (ix2 (0 : Fin 1) k)
  · refine (Cert.RowsProduct.broadcastTo_1n_an_apply (a := 10000) (n := 20) _ broadcasts_S1x20_S10000x20 p q).trans ?_
    exact congrFun (shapeCast_self x3 shapeCasts_S1x20_S1x20) (ix2 (0 : Fin 1) q)

theorem hz : (![0, 0] : Fin 2 → Nat) = fun _ => 0 := funext fun a => by fin_cases a <;> rfl

/-- The five windows' block positions over the grid: the feature block and the output block move together down the
    rows, the two rows and the weights stay, and nothing moves along the columns. -/
theorem positions : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0
    ∧ win1_4.index t (0 : Fin 2) ≤ 9 :=
  (by decide +kernel : ∀ t : Fin grid1.N, _)

/-- Every one of the ten row blocks is some point's. -/
theorem positions_onto : ∀ b : Fin 10, ∃ t : Fin cfg1.N, win1_4.index t (0 : Fin 2) = b.val ∧ win1_4.index t (1 : Fin 2) = 0 :=
  (by decide +kernel : ∀ b : Fin 10, ∃ t : Fin grid1.N, win1_4.index t (0 : Fin 2) = b.val ∧ win1_4.index t (1 : Fin 2) = 0)

section
variable (V : (c : Dev nD) → (b : Ref sig .tc) → Buf (Elt Ideal) ((c : Thread nD τ).loc b))

/-- What point `t` writes back is block `t` of the classifier's output of the four arrays as the region finds them. -/
theorem flushed_eq (c : Dev nD) (t : Fin cfg1.N) :
    (dat1 (F := Ideal) V c).flushed 4 t
      = ((cfg1.win 4).blk t).view.read (Elt Ideal) (logits (V c main_v44) (V c main_v45) (V c main_arg4) (V c main_v46)) := by
  show (cfg1.win 4).cut (grid1.coords t) ((dat1 (F := Ideal) V c).after 4 t) = _
  rw [after1_4]
  unfold out1_4
  rw [View.canon_unit_zero hz]
  simp only [View.ld_unit_zero (S := S10000x32) hz, View.ld_unit_zero (S := S1x32) hz,
    View.ld_unit_zero (S := S32x20) hz, View.ld_unit_zero (S := S1x20) hz]
  obtain ⟨e0, e1, e2, e3, e4, e5, e6, e7, e8, e9⟩ := positions t
  funext j
  obtain ⟨p, q, rfl⟩ : ∃ (p : Fin 10000) (q : Fin 20), j = ix2 p q := ⟨j 0, j 1, eq_ix2 j⟩
  show k1_pay1 (F := Ideal) (iblk1 V c 0 t) (iblk1 V c 1 t) (iblk1 V c 2 t) (iblk1 V c 3 t) (ix2 p q)
    = logits (V c main_v44) (V c main_v45) (V c main_arg4) (V c main_v46) (((cfg1.win 4).blk t).view.emb (ix2 p q))
  refine (block_apply (iblk1 V c 0 t) (iblk1 V c 1 t) (iblk1 V c 2 t) (iblk1 V c 3 t) p q).trans ?_
  unfold logits
  have hd : iblk1 V c 3 t (ix2 (0 : Fin 1) q)
      = V c main_v46 (ix2 (0 : Fin 1) ((((cfg1.win 4).blk t).view.emb (ix2 p q)) 1 : Fin 20)) := by
    show V c main_v46 (((cfg1.win 3).blk t).view.emb (ix2 (0 : Fin 1) q)) = _
    refine congrArg (V c main_v46) ?_
    funext a; apply Fin.ext
    match a with
    | ⟨0, _⟩ =>
      show win1_3.index t (0 : Fin 2) * 1 + 1 * 0 = 0
      omega
    | ⟨1, _⟩ =>
      show win1_3.index t (1 : Fin 2) * 20 + 1 * q.val = win1_4.index t (1 : Fin 2) * 20 + 1 * q.val
      omega
  refine congrArg₂ (· + ·) (Finset.sum_congr rfl fun k _ => ?_) hd
  have ha : iblk1 V c 0 t (ix2 p k)
      = V c main_v44 (ix2 ((((cfg1.win 4).blk t).view.emb (ix2 p q)) 0 : Fin 100000) k) := by
    show V c main_v44 (((cfg1.win 0).blk t).view.emb (ix2 p k)) = _
    refine congrArg (V c main_v44) ?_
    funext a; apply Fin.ext
    match a with
    | ⟨0, _⟩ =>
      show win1_0.index t (0 : Fin 2) * 10000 + 1 * p.val = win1_4.index t (0 : Fin 2) * 10000 + 1 * p.val
      omega
    | ⟨1, _⟩ =>
      show win1_0.index t (1 : Fin 2) * 32 + 1 * k.val = k.val
      omega
  have hb : iblk1 V c 1 t (ix2 (0 : Fin 1) k) = V c main_v45 (ix2 (0 : Fin 1) k) := by
    show V c main_v45 (((cfg1.win 1).blk t).view.emb (ix2 (0 : Fin 1) k)) = _
    refine congrArg (V c main_v45) ?_
    funext a; apply Fin.ext
    match a with
    | ⟨0, _⟩ =>
      show win1_1.index t (0 : Fin 2) * 1 + 1 * 0 = 0
      omega
    | ⟨1, _⟩ =>
      show win1_1.index t (1 : Fin 2) * 32 + 1 * k.val = k.val
      omega
  have hw : iblk1 V c 2 t (ix2 k q)
      = V c main_arg4 (ix2 k ((((cfg1.win 4).blk t).view.emb (ix2 p q)) 1 : Fin 20)) := by
    show V c main_arg4 (((cfg1.win 2).blk t).view.emb (ix2 k q)) = _
    refine congrArg (V c main_arg4) ?_
    funext a; apply Fin.ext
    match a with
    | ⟨0, _⟩ =>
      show win1_2.index t (0 : Fin 2) * 32 + 1 * k.val = k.val
      omega
    | ⟨1, _⟩ =>
      show win1_2.index t (1 : Fin 2) * 20 + 1 * q.val = win1_4.index t (1 : Fin 2) * 20 + 1 * q.val
      omega
  rw [ha, hb, hw]

/-- An index of the output lies in point `t`'s block iff each coordinate lies in the block's range on its axis. -/
theorem mem_blk (t : Fin cfg1.N) (i : S100000x20.Idx) :
    i ∈ ((cfg1.win 4).blk t).view.set ↔ ∀ a : Fin 2, win1_4.index t a * S10000x20.size a ≤ (i a).val
      ∧ (i a).val < win1_4.index t a * S10000x20.size a + S10000x20.size a := by
  show i ∈ ((View.whole main_v47).slice (win1_4.rect t)).set ↔ _
  rw [View.set_slice_whole, Rect.mem_set_unit]
  exact Iff.rfl

/-- The ten blocks cover the output: row `r` lies in block `r / 10000`. -/
theorem covered (i : S100000x20.Idx) :
    ∃ t : Fin cfg1.N, (cfg1.win 4).flush t = true ∧ i ∈ ((cfg1.win 4).blk t).view.set := by
  have hi0 : (i 0).val < 100000 := (i 0).isLt
  have hi1 : (i 1).val < 20 := (i 1).isLt
  obtain ⟨t, ht0, ht1⟩ := positions_onto ⟨(i 0).val / 10000, by omega⟩
  have ht0' : win1_4.index t (0 : Fin 2) = (i 0).val / 10000 := ht0
  refine ⟨t, flush1_4 t, ?_⟩
  rw [mem_blk]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 20 ≤ (i 1).val ∧ (i 1).val < win1_4.index t (1 : Fin 2) * 20 + 20
    omega

/-- The output array after the region: the classifier's output of the four input arrays as the region found them. -/
theorem final (c : Dev nD) :
    (dat1 (F := Ideal) V c).arrAt 4 cfg1.N = logits (V c main_v44) (V c main_v45) (V c main_arg4) (V c main_v46) :=
  (dat1 (F := Ideal) V c).arrAt_eq_of_cover 4 (logits (V c main_v44) (V c main_v45) (V c main_arg4) (V c main_v46))
    (fun t _ => flushed_eq V c t) covered

end

end Cert.KernelIdeal.Classify

end
-- ==== Proof.HostSide.lean ====
/-
  The host operations around the two regions.

  Before the first region the host builds, from the edge list `e` alone: the source and target lists with one self loop
  per node appended; the in-degree of every node (a scatter-add of ones at the targets); `deg ^ (-1/2)` where the degree
  is positive and `0` elsewhere; and per edge the product of that quantity at its source and at its target.  Between the
  regions it gathers the projected features' rows at the sources, scales each by its edge's weight, and scatter-adds them
  at the targets; it also re-lays the two bias vectors as one-row matrices.  None of these operations touches the six
  argument arrays.

  The reference program performs the SAME operations on the same operands, in the same order, with the same literals: only
  the projected features come from elsewhere.  So each buffer is identified here with the reference's stage of the same
  name, as whole arrays: scatter and gather are opaque whole-array operations and nothing is read at an index.  The
  contents at each boundary (`W0` at launch, `W1`, `W2`, `W3` after the three stretches before the first region, `W4` after
  it, `W5` after the stretch between the regions) are those of the generated frame.
-/
import proofs.«121064_j6725918785702_1_alg».proof.Proof.Gen.KernelIdeal.Frame
import proofs.«121064_j6725918785702_1_alg».proof.Proof.RefReadP
import proofs.«121064_j6725918785702_1_alg».proof.Proof.FeatBlocks

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

section Aggregation
variable {F : FTy → Type} [FloatOps F]

/-- The aggregation of the reference, with the projected features `xw` a parameter: gather the rows of `xw` at the
    sources, scale by the edge weights, scatter-add at the targets into zeros. -/
def aggOf (xw : (⟨Cert.ReferenceIdeal.S100000x32, .f32⟩ : BufTy).Contents (Elt F))
    (e : (⟨Cert.ReferenceIdeal.S2x3200000, .i32⟩ : BufTy).Contents (Elt F)) : (⟨Cert.ReferenceIdeal.S100000x32, .f32⟩ : BufTy).Contents (Elt F) :=
  Host.scatterAdd Cert.ReferenceIdeal.scatter_S100000x32_S3300000x1_S3300000x32_1_0_0_1 (Cert.ReferenceIdeal.ReadP.val_main_v42 (F := F))
    (Cert.ReferenceIdeal.ReadP.val_main_v43 (F := F) e)
    (mulf (Cert.ReferenceIdeal.ReadP.val_main_v40 (F := F) e)
      (Host.gather Cert.ReferenceIdeal.gather_S100000x32_S3300000x1_S3300000x32_1_0_n_n_0_1_132 xw (Cert.ReferenceIdeal.ReadP.val_main_v38 (F := F) e)))

/-- The reference's aggregated features are `aggOf` of ITS projected features. -/
theorem aggOf_ref (x0 : (⟨Cert.ReferenceIdeal.S100000x64, .f32⟩ : BufTy).Contents (Elt F))
    (e : (⟨Cert.ReferenceIdeal.S2x3200000, .i32⟩ : BufTy).Contents (Elt F)) (x2 : (⟨Cert.ReferenceIdeal.S64x32, .f32⟩ : BufTy).Contents (Elt F)) :
    Cert.ReferenceIdeal.ReadP.val_main_v44 (F := F) x0 e x2 = aggOf (Cert.ReferenceIdeal.ReadP.val_main_v31 (F := F) x0 x2) e := rfl

end Aggregation

/-! ## One stretch at a time, from any contents `U` -/

section Stretches
variable (U : Valuation τ sig (Elt Ideal)) (e : (⟨Cert.ReferenceIdeal.S2x3200000, .i32⟩ : BufTy).Contents (Elt Ideal))

/-- The degree-based factor: the select of the small function the host calls for `where`. -/
theorem stretch_where :
    StableHlo.after hostOps0_1 U (Proc.devRef .tc main_v15)
      = select (U (Proc.devRef .tc main_v12)) (U (Proc.devRef .tc main_v14))
          (broadcastInDim S100000 ![] bcast_S_S100000 (id (U (Proc.devRef .tc main_cst_3)))) := by
  after_results_simp <;> rfl

/-- The per-edge weight from the factor, the sources and the targets. -/
theorem stretch_weights (h15 : U (Proc.devRef .tc main_v15) = Cert.ReferenceIdeal.ReadP.val_main_v15 (F := Ideal) e)
    (h3 : U (Proc.devRef .tc main_v3) = Cert.ReferenceIdeal.ReadP.val_main_v3 (F := Ideal) e)
    (h6 : U (Proc.devRef .tc main_v6) = Cert.ReferenceIdeal.ReadP.val_main_v6 (F := Ideal) e) :
    StableHlo.after hostOps0_2 U (Proc.devRef .tc main_v30) = Cert.ReferenceIdeal.ReadP.val_main_v30 (F := Ideal) e := by
  after_results_simp
  rw [h15, h3, h6]
  rfl

/-- The aggregated features from the projected ones, the weights, the sources and the targets. -/
theorem stretch_aggregate (xw : S100000x32.Idx → EReal) (h31 : U (Proc.devRef .tc main_v31) = xw)
    (h30 : U (Proc.devRef .tc main_v30) = Cert.ReferenceIdeal.ReadP.val_main_v30 (F := Ideal) e)
    (h3 : U (Proc.devRef .tc main_v3) = Cert.ReferenceIdeal.ReadP.val_main_v3 (F := Ideal) e)
    (h6 : U (Proc.devRef .tc main_v6) = Cert.ReferenceIdeal.ReadP.val_main_v6 (F := Ideal) e) :
    StableHlo.after hostOps1 U (Proc.devRef .tc main_v44) = aggOf (F := Ideal) xw e := by
  after_results_simp
  rw [h31, h30, h3, h6]
  rfl

/-- The first bias vector re-laid as a row. -/
theorem stretch_bias :
    StableHlo.after hostOps1 U (Proc.devRef .tc main_v45)
      = shapeCast S1x32 (U (Proc.devRef .tc main_arg3)) shapeCasts_S32_S1x32 := by
  after_results_simp <;> rfl

/-- The second bias vector re-laid as a row. -/
theorem stretch_outbias :
    StableHlo.after hostOps1 U (Proc.devRef .tc main_v46)
      = shapeCast S1x20 (U (Proc.devRef .tc main_arg5)) shapeCasts_S20_S1x20 := by
  after_results_simp <;> rfl

/-- The classifier's weights are not written between the regions. -/
theorem stretch_weights_kept :
    StableHlo.after hostOps1 U (Proc.devRef .tc main_arg4) = U (Proc.devRef .tc main_arg4) := by
  after_results_simp

end Stretches

/-! ## Along the run -/

variable (m : (ℓ : Loc nD τ sig) → Buf (Elt Ideal) ℓ) (ρ : Dev nD → PrngReg)

theorem sources3 (c : Dev nD) : W3 m ρ c (Proc.devRef .tc main_v3)
    = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp <;> rfl

theorem targets3 (c : Dev nD) : W3 m ρ c (Proc.devRef .tc main_v6)
    = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp <;> rfl

theorem sources2 (c : Dev nD) : W2 m ρ c (Proc.devRef .tc main_v3)
    = Cert.ReferenceIdeal.ReadP.val_main_v3 (F := Ideal) (m ((c : Thread nD τ).loc main_arg1)) := by
  show StableHlo.after hostOps0_1 (StableHlo.after hostOps0 (W0 m ρ c)) (Proc.devRef .tc main_v3) = _
  after_results_simp <;> rfl

theorem targets2 (c : Dev nD) : W2 m ρ c (Proc.devRef .tc main_v6)
    = Cert.ReferenceIdeal.ReadP.val_main_v6 (F := Ideal) (m ((c : Thread nD τ).loc main_arg1)) := by
  show StableHlo.after hostOps0_1 (StableHlo.after hostOps0 (W0 m ρ c)) (Proc.devRef .tc main_v6) = _
  after_results_simp <;> rfl

theorem positive1 (c : Dev nD) : W1 m ρ c (Proc.devRef .tc main_v12)
    = Cert.ReferenceIdeal.ReadP.val_main_v12 (F := Ideal) (m ((c : Thread nD τ).loc main_arg1)) := by
  show StableHlo.after hostOps0 (W0 m ρ c) (Proc.devRef .tc main_v12) = _
  after_results_simp <;> rfl

theorem power1 (c : Dev nD) : W1 m ρ c (Proc.devRef .tc main_v14)
    = Cert.ReferenceIdeal.ReadP.val_main_v14 (F := Ideal) (m ((c : Thread nD τ).loc main_arg1)) := by
  show StableHlo.after hostOps0 (W0 m ρ c) (Proc.devRef .tc main_v14) = _
  after_results_simp <;> rfl

theorem zero1 (c : Dev nD) : W1 m ρ c (Proc.devRef .tc main_cst_3) = Cert.ReferenceIdeal.ReadP.val_main_cst_3 (F := Ideal) := by
  show StableHlo.after hostOps0 (W0 m ρ c) (Proc.devRef .tc main_cst_3) = _
  after_results_simp <;> rfl

theorem factor2 (c : Dev nD) : W2 m ρ c (Proc.devRef .tc main_v15)
    = Cert.ReferenceIdeal.ReadP.val_main_v15 (F := Ideal) (m ((c : Thread nD τ).loc main_arg1)) := by
  refine (stretch_where (W1 m ρ c)).trans ?_
  rw [positive1 m ρ c, power1 m ρ c, zero1 m ρ c]
  rfl

theorem weights3 (c : Dev nD) : W3 m ρ c (Proc.devRef .tc main_v30)
    = Cert.ReferenceIdeal.ReadP.val_main_v30 (F := Ideal) (m ((c : Thread nD τ).loc main_arg1)) :=
  stretch_weights (W2 m ρ c) _ (factor2 m ρ c) (sources2 m ρ c) (targets2 m ρ c)

/-- The two arrays the first region reads are the arguments as launched. -/
theorem features3 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp <;> rfl

theorem projection3 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results_simp <;> rfl

theorem bias3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem classifier3 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem outbias3 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-- After the first region its output array holds the product of the two arguments. -/
theorem projected4 (c : Dev nD) : W4 m ρ c (Proc.devRef .tc main_v31)
    = Feat.proj (m ((c : Thread nD τ).loc main_arg0)) (m ((c : Thread nD τ).loc main_arg2)) := by
  refine (W4_arr m ρ c 2).trans ((Feat.final (V3 m ρ) c).trans ?_)
  rw [features3 m ρ c, projection3 m ρ c]

/-- The second region finds the aggregated features of the reference, taken of the kernel's projected features. -/
theorem aggregated5 (c : Dev nD) : V5 m ρ c main_v44
    = aggOf (F := Ideal) (Feat.proj (m ((c : Thread nD τ).loc main_arg0)) (m ((c : Thread nD τ).loc main_arg2)))
        (m ((c : Thread nD τ).loc main_arg1)) :=
  stretch_aggregate (W4 m ρ c) _ _ (projected4 m ρ c)
    ((W4_of_ne m ρ c main_v30 (by decide)).trans (weights3 m ρ c))
    ((W4_of_ne m ρ c main_v3 (by decide)).trans (sources3 m ρ c))
    ((W4_of_ne m ρ c main_v6 (by decide)).trans (targets3 m ρ c))

theorem biasrow5 (c : Dev nD) : V5 m ρ c main_v45
    = shapeCast S1x32 (m ((c : Thread nD τ).loc main_arg3)) shapeCasts_S32_S1x32 := by
  refine (stretch_bias (W4 m ρ c)).trans ?_
  rw [(W4_of_ne m ρ c main_arg3 (by decide)).trans (bias3 m ρ c)]

theorem outbiasrow5 (c : Dev nD) : V5 m ρ c main_v46
    = shapeCast S1x20 (m ((c : Thread nD τ).loc main_arg5)) shapeCasts_S20_S1x20 := by
  refine (stretch_outbias (W4 m ρ c)).trans ?_
  rw [(W4_of_ne m ρ c main_arg5 (by decide)).trans (outbias3 m ρ c)]

theorem classifier5 (c : Dev nD) : V5 m ρ c main_arg4 = m ((c : Thread nD τ).loc main_arg4) :=
  (stretch_weights_kept (W4 m ρ c)).trans ((W4_of_ne m ρ c main_arg4 (by decide)).trans (classifier3 m ρ c))

end Cert.KernelIdeal.HostSide

end
-- ==== Proof.RefStages.lean ====
/-
  The reference's stages as the kernel's two functions.

  At the ideal values the reference's first `dot_general` is, entry by entry, the sum `∑ k, x (r, k) · w (k, q)`: the
  function `Feat.proj` that the first region leaves in its output array.  Its last six operations — add the bias row
  broadcast down the rows, take the maximum with zero, multiply by the classifier's weights, add the output bias row
  broadcast down the rows — are, entry by entry, the function `Classify.logits` of the aggregated features: the sum over
  `k` of `max (a (r, k) + b k, 0) · w (k, q)`, plus `d q`.  Both sides use one sum in one order, so nothing beyond
  renaming the indices is needed, and no finiteness.
-/
import proofs.«121064_j6725918785702_1_alg».proof.Proof.RefReadP
import proofs.«121064_j6725918785702_1_alg».proof.Proof.FeatBlocks
import proofs.«121064_j6725918785702_1_alg».proof.Proof.ClassBlocks

set_option maxRecDepth 16384

noncomputable section

namespace Cert.ReferenceIdeal.Stages

open Idealize.ShloMosaic Idealize.ShloMosaic.TcCoe Idealize.SL.Sem Idealize.ShloMosaic.ValueIdx
open Cert.ReferenceIdeal Cert.ReferenceIdeal.ReadP

/-- The reference's projected features are the product, entry by entry. -/
theorem proj_eq (x0 : (⟨S100000x64, .f32⟩ : BufTy).Contents (Elt Ideal)) (x2 : (⟨S64x32, .f32⟩ : BufTy).Contents (Elt Ideal)) :
    val_main_v31 (F := Ideal) x0 x2 = Cert.KernelIdeal.Feat.proj x0 x2 := by
  funext i
  rw [val_main_v31_apply]
  unfold Cert.KernelIdeal.Feat.proj
  refine Finset.sum_congr rfl fun k _ => ?_
  have el : lidx_main_v31 i k = ix2 (i 0 : Fin 100000) k :=
    funext fun a => Fin.ext (by match a with | ⟨0, _⟩ => rfl | ⟨1, _⟩ => rfl)
  have er : ridx_main_v31 i k = ix2 k (i 1 : Fin 32) :=
    funext fun a => Fin.ext (by match a with | ⟨0, _⟩ => rfl | ⟨1, _⟩ => rfl)
  exact congrArg₂ (· * ·) (congrArg x0 el) (congrArg x2 er)

/-- The reference's result is the classifier's output of its aggregated features, for any two rows `b`, `d` that hold
    the two bias vectors. -/
theorem logits_eq (x0 : (⟨S100000x64, .f32⟩ : BufTy).Contents (Elt Ideal)) (x1 : (⟨S2x3200000, .i32⟩ : BufTy).Contents (Elt Ideal))
    (x2 : (⟨S64x32, .f32⟩ : BufTy).Contents (Elt Ideal)) (x3 : (⟨S32, .f32⟩ : BufTy).Contents (Elt Ideal))
    (x4 : (⟨S32x20, .f32⟩ : BufTy).Contents (Elt Ideal)) (x5 : (⟨S20, .f32⟩ : BufTy).Contents (Elt Ideal))
    (b : S1x32.Idx → EReal) (d : S1x20.Idx → EReal)
    (hb : ∀ k : Fin 32, b (ix2 (0 : Fin 1) k) = x3 (ix1 k)) (hd : ∀ q : Fin 20, d (ix2 (0 : Fin 1) q) = x5 (ix1 q)) :
    val_main_v52 (F := Ideal) x0 x1 x2 x3 x4 x5
      = Cert.KernelIdeal.Classify.logits (val_main_v44 (F := Ideal) x0 x1 x2) b x4 d := by
  funext i
  rw [val_main_v52_apply, val_main_v49_apply, val_main_v51_apply, val_main_v50_apply]
  unfold Cert.KernelIdeal.Classify.logits
  have ed : idx_main_v50 (idx_main_v51 i) = ix1 (i 1 : Fin 20) :=
    funext fun a => Fin.ext (by match a with | ⟨0, _⟩ => rfl)
  refine congrArg₂ (· + ·) (Finset.sum_congr rfl fun k _ => ?_) ((congrArg x5 ed).trans (hd (i 1 : Fin 20)).symm)
  rw [val_main_v48_apply, val_main_v47_apply, val_main_v46_apply, val_main_v45_apply, val_main_call1_v0_apply,
    val_main_call1_cst_apply]
  have el : lidx_main_v49 i k = ix2 (i 0 : Fin 100000) k :=
    funext fun a => Fin.ext (by match a with | ⟨0, _⟩ => rfl | ⟨1, _⟩ => rfl)
  have er : ridx_main_v49 i k = ix2 k (i 1 : Fin 20) :=
    funext fun a => Fin.ext (by match a with | ⟨0, _⟩ => rfl | ⟨1, _⟩ => rfl)
  have eb : x3 (idx_main_v45 (idx_main_v46 (lidx_main_v49 i k))) = b (ix2 (0 : Fin 1) k) :=
    (congrArg x3 (funext fun a => Fin.ext (by match a with | ⟨0, _⟩ => rfl))).trans (hb k).symm
  show max (val_main_v44 (F := Ideal) x0 x1 x2 (lidx_main_v49 i k) + x3 (idx_main_v45 (idx_main_v46 (lidx_main_v49 i k))))
        (Ideal.ofBits .f32 0x00000000#32) * x4 (ridx_main_v49 i k)
      = max (val_main_v44 (F := Ideal) x0 x1 x2 (ix2 (i 0 : Fin 100000) k) + b (ix2 (0 : Fin 1) k))
        (Ideal.ofBits .f32 0x00000000#32) * x4 (ix2 k (i 1 : Fin 20))
  exact congrArg₂ (· * ·)
    (congrArg₂ max (congrArg₂ (· + ·) (congrArg (val_main_v44 (F := Ideal) x0 x1 x2) el) eb) rfl) (congrArg x4 er)

end Cert.ReferenceIdeal.Stages

end
-- ==== Proof.lean ====
/-
  Two programs for one graph convolution followed by a classifier, equal at the ideal values.

  Both take node features `x : [100000, 64]`, an edge list `e : [2, 3200000]`, weights `W₁ : [64, 32]`, a bias `b₁ : [32]`,
  classifier weights `W : [32, 20]` and a bias `b : [20]`, and both compute

      out = max (A (x · W₁) + b₁, 0) · W + b,

  where `A` is the normalised aggregation over the edges with a self loop per node: gather the rows of `x · W₁` at the
  sources, scale each by `deg^(-1/2)` at its source times `deg^(-1/2)` at its target, and scatter-add at the targets.
  The reference does everything with whole-array host operations.  The kernel computes `x · W₁` in a first grid region,
  ten row blocks of 10000, and `max (· + b₁, 0) · W + b` in a second one over the same blocks; the aggregation in between
  is the reference's own sequence of host operations.

  Over the extended reals a change of float format is the identity and both a block product into a zero accumulator and
  the host's `dot_general` are the plain sum over the shared coordinate, in the same order.  Hence
    * after the first region the output array is `Feat.proj x W₁`, which is the reference's first product (the ten
      blocks tile the rows; row `r` of the product reads row `r` of `x` only);
    * the host operations, being the same whole-array functions of the same operands, give the same aggregated features;
    * after the second region the output array is `Classify.logits` of the aggregated features, which is the
      reference's last six operations read at an index.
  No law that could fail at an infinity is used, so the precondition is never opened.  The frames of the two kernel
  programs are the generated ones; the reference's frame is its run with the result dropped; the idealization rewrote no
  operation, so there is nothing to preserve.
-/
import proofs.«121064_j6725918785702_1_alg».proof.Defs
import proofs.«121064_j6725918785702_1_alg».proof.Proof.Gen.Kernel
import proofs.«121064_j6725918785702_1_alg».proof.Proof.Gen.Kernel.Skeleton
import proofs.«121064_j6725918785702_1_alg».proof.Proof.Gen.Kernel.Launch
import proofs.«121064_j6725918785702_1_alg».proof.Proof.Gen.Kernel.Points
import proofs.«121064_j6725918785702_1_alg».proof.Proof.Gen.Kernel.Frame
import proofs.«121064_j6725918785702_1_alg».proof.Proof.Gen.KernelIdeal
import proofs.«121064_j6725918785702_1_alg».proof.Proof.Gen.KernelIdeal.Skeleton
import proofs.«121064_j6725918785702_1_alg».proof.Proof.Gen.KernelIdeal.Launch
import proofs.«121064_j6725918785702_1_alg».proof.Proof.Gen.KernelIdeal.Points
import proofs.«121064_j6725918785702_1_alg».proof.Proof.Gen.KernelIdeal.Frame
import proofs.«121064_j6725918785702_1_alg».proof.Proof.Gen.ReferenceIdeal
import proofs.«121064_j6725918785702_1_alg».proof.Proof.Gen.Pre_finite_inputs
import proofs.«121064_j6725918785702_1_alg».proof.Proof.RefRunP
import proofs.«121064_j6725918785702_1_alg».proof.Proof.RefReadP
import proofs.«121064_j6725918785702_1_alg».proof.Proof.LibBroadcast
import proofs.«121064_j6725918785702_1_alg».proof.Proof.KernelRun
import proofs.«121064_j6725918785702_1_alg».proof.Proof.FeatBlocks
import proofs.«121064_j6725918785702_1_alg».proof.Proof.ClassBlocks
import proofs.«121064_j6725918785702_1_alg».proof.Proof.HostSide
import proofs.«121064_j6725918785702_1_alg».proof.Proof.RefStages
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's result array after its run is the reference's last stage of the kernel's own argument arrays. -/
theorem kernel_value (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.Gen.W6 m ρ c (Proc.devRef .tc Cert.KernelIdeal.main_v47)
      = Cert.ReferenceIdeal.ReadP.val_main_v52 (F := Ideal)
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  refine (Cert.KernelIdeal.Gen.W6_arr m ρ c 4).trans ?_
  refine (Cert.KernelIdeal.Classify.final (Cert.KernelIdeal.Gen.V5 m ρ) c).trans ?_
  rw [Cert.KernelIdeal.HostSide.aggregated5 m ρ c, Cert.KernelIdeal.HostSide.biasrow5 m ρ c, Cert.KernelIdeal.HostSide.classifier5 m ρ c,
    Cert.KernelIdeal.HostSide.outbiasrow5 m ρ c]
  refine Eq.trans ?_ (Cert.ReferenceIdeal.Stages.logits_eq _ _ _ _ _ _
    (shapeCast Cert.KernelIdeal.S1x32 (m ((c.tc : Thread Cert.KernelIdeal.nD Cert.KernelIdeal.τ).loc Cert.KernelIdeal.main_arg3)) Cert.KernelIdeal.Facts₀.shapeCasts_S32_S1x32)
    (shapeCast Cert.KernelIdeal.S1x20 (m ((c.tc : Thread Cert.KernelIdeal.nD Cert.KernelIdeal.τ).loc Cert.KernelIdeal.main_arg5)) Cert.KernelIdeal.Facts₀.shapeCasts_S20_S1x20)
    (fun k => Cert.Layout.shapeCast_row_apply _ _ k) (fun q => Cert.Layout.shapeCast_row_apply _ _ q)).symm
  rw [Cert.KernelIdeal.HostSide.aggOf_ref, Cert.ReferenceIdeal.Stages.proj_eq]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result array at one function of the kernel's argument arrays. -/
theorem algebraic : Cert.algebraic_KernelIdeal_ReferenceIdeal := by
  intro m ρ m' ρ' _ hagree
  refine ⟨fun c => Cert.ReferenceIdeal.ReadP.val_main_v52 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (kernel_value m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v52_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
